-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S256x128 : Shape := ⟨2, ![256, 128]⟩
abbrev S128 : Shape := ⟨1, ![128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S200000x128 .f32) (main_arg2 : FVec F S256x128 .f32) (main_arg3 : FVec F S128 .f32) (main_arg4 : FVec F S128x128 .f32) (main_arg5 : FVec F S128 .f32) (main_arg6 : IVec S600000 32) (main_arg7 : IVec S600000 32) (main_arg8 : IVec S600000 32) (main_arg9 : IVec S600000 32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S200000x128 : Shape := ⟨2, ![200000, 128]⟩
abbrev S256x128 : Shape := ⟨2, ![256, 128]⟩
abbrev S128 : Shape := ⟨1, ![128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩
abbrev S1x128 : Shape := ⟨2, ![1, 128]⟩
abbrev S5000x128 : Shape := ⟨2, ![5000, 128]⟩
abbrev S10000x128 : Shape := ⟨2, ![10000, 128]⟩

abbrev nBuf : Space → Nat
  | .hbm => 77
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S100000x128, .bf16⟩
  | .hbm, ⟨13, _⟩ => ⟨S200000x128, .bf16⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .bf16⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .bf16⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S600000x1, .i32⟩
  | .hbm, ⟨41, _⟩ => ⟨S100000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .bf16⟩
  | .hbm, ⟨51, _⟩ => ⟨S600000x128, .f32⟩
  | .hbm, ⟨52, _⟩ => ⟨S_, .f32⟩
  | .hbm, ⟨53, _⟩ => ⟨S200000x128, .f32⟩
  | .hbm, ⟨54, _⟩ => ⟨S600000x1, .i32⟩
  | .hbm, ⟨55, _⟩ => ⟨S200000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S200000, .f32⟩
  | .hbm, ⟨60, _⟩ => ⟨S600000x1, .i32⟩
  | .hbm, ⟨61, _⟩ => ⟨S200000, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S200000x1, .f32⟩
  | .hbm, ⟨66, _⟩ => ⟨S200000x128, .f32⟩
  | .hbm, ⟨67, _⟩ => ⟨S200000x128, .f32⟩
  | .hbm, ⟨68, _⟩ => ⟨S100000x128, .bf16⟩
  | .hbm, ⟨69, _⟩ => ⟨S100000x128, .bf16⟩
  | .hbm, ⟨70, _⟩ => ⟨S200000x128, .bf16⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S200000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S10000x128, .bf16⟩
  | .local _ .vmem, ⟨12, _⟩ => ⟨S10000x128, .bf16⟩
  | .local _ .vmem, ⟨13, _⟩ => ⟨S10000x128, .f32⟩
  | .local _ .vmem, ⟨14, _⟩ => ⟨S10000x128, .f32⟩
  | .local _ .vmem, ⟨15, _⟩ => ⟨S128x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S5000x128_S128x128_S5000x128_1_0_0_1_n_n_wf : DotDims.WF S5000x128 S128x128 S5000x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .bf16 = 32 ∨ (Rect.block (s := S100000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .bf16 = 32 ∨ (Rect.block (s := S200000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S200000x128.size a
  hwx1_1 : ∀ i : grid1.Coords, EltTy.bits .f32 = 32 ∨ (Rect.block (s := S200000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S200000x128.size a
  hwx1_4 : ∀ i : grid1.Coords, EltTy.bits .f32 = 32 ∨ (Rect.block (s := S200000x128) S10000x128.size (cc1_transform_4 i) (hinb1_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S256x128 : Shape := ⟨2, ![256, 128]⟩
abbrev S128 : Shape := ⟨1, ![128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩
abbrev S100000x256 : Shape := ⟨2, ![100000, 256]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S200000x128, .f32⟩
  | .hbm, ⟨49, _⟩ => ⟨S600000x1, .i32⟩
  | .hbm, ⟨50, _⟩ => ⟨S200000x128, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S200000, .f32⟩
  | .hbm, ⟨55, _⟩ => ⟨S600000x1, .i32⟩
  | .hbm, ⟨56, _⟩ => ⟨S200000, .f32⟩
  | .hbm, ⟨57, _⟩ => ⟨S_, .f32⟩
  | .hbm, ⟨58, _⟩ => ⟨S200000, .f32⟩
  | .hbm, ⟨59, _⟩ => ⟨S200000, .f32⟩
  | .hbm, ⟨60, _⟩ => ⟨S200000x1, .f32⟩
  | .hbm, ⟨61, _⟩ => ⟨S200000x128, .f32⟩
  | .hbm, ⟨62, _⟩ => ⟨S200000x128, .f32⟩
  | .hbm, ⟨63, _⟩ => ⟨S100000x256, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S200000x128, .f32⟩
  | .hbm, ⟨73, _⟩ => ⟨S1x128, .f32⟩
  | .hbm, ⟨74, _⟩ => ⟨S200000x128, .f32⟩
  | .hbm, ⟨75, _⟩ => ⟨S200000x128, .f32⟩
  | .hbm, ⟨76, _⟩ => ⟨S_, .f32⟩
  | .hbm, ⟨77, _⟩ => ⟨S200000x128, .f32⟩
  | .hbm, ⟨78, _⟩ => ⟨S200000x128, .f32⟩
  | .hbm, ⟨79, _⟩ => ⟨S200000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call0_cst : Ref sig .tc := ⟨.hbm, 68, rfl⟩
abbrev main_call0_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S200000x128_0_1 : S1x128.BroadcastsInDim S200000x128 (![0, 1] : Fin 2 → Fin S200000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S100000x256_S256x128_S100000x128_1_0_0_1_n_n_wf : DotDims.WF S100000x256 S256x128 S100000x128 [1] [0] [0] [1] [] []
  dot_S200000x128_S128x128_S200000x128_1_0_0_1_n_n_wf : DotDims.WF S200000x128 S128x128 S200000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelRun.lean ====
/-
  The idealized kernel's run with its two results named.

  @main is a stretch of host operations followed by two kernel regions, the router update and then the packet update. The
  first region writes only its own result array; the second reads nothing the first wrote and writes only its own result
  array. So after the run:
    * the router result holds what the first region's pipeline leaves in its output array, entered from the contents the
      host stretch leaves (`results`, `router_result`);
    * the packet result holds what the second region's pipeline leaves in its output array; each array it reads is, at its
      entry, still as the host stretch left it, the first region having changed none of them (`packet_result`,
      `second_entry`);
    * every argument array is as launched.
  Nothing is computed here: the statements only say WHICH array of WHICH region each result is.
-/
import proofs.«142274_j33131377721484_2_alg».proof.Proof.Patched.KernelIdealFrame

set_option maxRecDepth 16384

noncomputable section

namespace Cert.KernelIdeal.Results

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; each result array then holds the contents the
    last segment boundary gives its buffer, and each argument array is as launched. -/
theorem results : θ_run defs (onTc (τ := τ) (main (F := F))) ⟨m, fun _ => 0, ρ⟩ (fun r => ∀ c : Dev nD,
      r.2.mem ((c.tc : Thread nD τ).loc main_v51) = W3 m ρ c (Proc.devRef .tc main_v51)
      ∧ r.2.mem ((c.tc : Thread nD τ).loc main_v52) = W3 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v51 (by decide)),
       h c _ (mem_uc main_v52 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

/-- The router result is the first region's output array as its pipeline leaves it: the second region stages no window
    on that array. -/
theorem router_result (c : Dev nD) :
    W3 m ρ c (Proc.devRef .tc main_v51) = (dat0 (V1 m ρ) c).arrAt 6 cfg0.N :=
  (W3_of_ne m ρ c main_v51 (by decide)).trans (W2_arr m ρ c 6)

/-- The packet result is the second region's output array as its pipeline leaves it. -/
theorem packet_result (c : Dev nD) :
    W3 m ρ c (Proc.devRef .tc main_v52) = (dat1 (V2 m ρ) c).arrAt 4 cfg1.N :=
  W3_arr m ρ c 4

/-- Each array the second region reads is, at that region's entry, as the host stretch left it: the first region stages
    no window on it. -/
theorem second_entry_v46 (c : Dev nD) : V2 m ρ c main_v46 = V1 m ρ c main_v46 := W2_of_ne m ρ c main_v46 (by decide)
theorem second_entry_arg1 (c : Dev nD) : V2 m ρ c main_arg1 = V1 m ρ c main_arg1 := W2_of_ne m ρ c main_arg1 (by decide)
theorem second_entry_arg4 (c : Dev nD) : V2 m ρ c main_arg4 = V1 m ρ c main_arg4 := W2_of_ne m ρ c main_arg4 (by decide)
theorem second_entry_v50 (c : Dev nD) : V2 m ρ c main_v50 = V1 m ρ c main_v50 := W2_of_ne m ρ c main_v50 (by decide)

end Cert.KernelIdeal.Results

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«142274_j33131377721484_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibSplitLinear.lean ====
/-
  A linear layer on two column blocks, read entry by entry.

  Let `a` be an [M, Ka] matrix, `b` an [M, Kb] matrix, `W` a [K, N] matrix with K = Ka + Kb, and `bias` a vector of
  length N. Writing [a | b] for the two matrices laid side by side, the entry (p, q) of [a | b] · W + bias is

      ( ∑ k < Ka, a (p, k) · W (k, q)  +  ∑ k < Kb, b (p, k) · W (Ka + k, q) )  +  bias q          (`entry`)

  because a sum over the K columns of [a | b] is the sum over its first Ka columns, where it holds `a`, plus the sum over
  its last Kb, where it holds `b`. Only the associativity and commutativity of addition are used, so the identity holds on
  the extended reals with no finiteness assumed.

  Two programs that compute it are read here at an index:
    * the host's form — concatenate along axis 1, one `dot_general` against the whole `W`, the bias placed as a row and
      repeated down the rows (`host_apply`);
    * a tile's form — two matrix products into zero accumulators, one per column block against its own rows of the weight,
      added, plus a [1, N] row repeated down the tile (`tile_apply`), whatever float formats the products' operands have;
      when the tile's two weights are the upper and lower row blocks cut from `W` and its row is `bias` recast as [1, N],
      the tile's entry is `entry` (`tileEntry_cut`).
  `layer` is the whole [M, N] array of entries; `host_eq` and `tile_cut_eq` are the two forms as array equations.
-/
import proofs.«142274_j33131377721484_2_alg».proof.Proof.LibPlainDot
import proofs.«142274_j33131377721484_2_alg».proof.Proof.LibDotSums
import proofs.«142274_j33131377721484_2_alg».proof.Proof.LibBiasRow
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.SplitLinear

open Idealize.ShloMosaic Idealize.ShloMosaic.ValueIdx

variable {M Ka Kb K N : Nat}

/-- Row `k` of the weight's upper block, as a row of the whole weight. -/
def topRow (hK : Ka + Kb = K) (k : Fin Ka) : Fin K := ⟨k.val, by have := k.isLt; omega⟩

/-- Row `k` of the weight's lower block, as a row of the whole weight: `Ka` rows further down. -/
def botRow (hK : Ka + Kb = K) (k : Fin Kb) : Fin K := ⟨Ka + k.val, by have := k.isLt; omega⟩

/-- The entry (p, q) of [a | b] · W + bias, the contraction written block by block. -/
def entry (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) : EReal :=
  (∑ k : Fin Ka, a (ix2 p k) * W (ix2 (topRow hK k) q) + ∑ k : Fin Kb, b (ix2 p k) * W (ix2 (botRow hK k) q))
    + bias (ix1 q)

/-- A sum over K = Ka + Kb indices is the sum over the first Ka plus the sum over the last Kb. -/
theorem sum_split (hK : Ka + Kb = K) (f : Fin K → EReal) :
    ∑ k : Fin K, f k = ∑ k : Fin Ka, f (topRow hK k) + ∑ k : Fin Kb, f (botRow hK k) := by
  subst hK
  rw [Fin.sum_univ_add]
  exact congrArg₂ (· + ·) (Finset.sum_congr rfl fun k _ => congrArg f (Fin.ext rfl))
    (Finset.sum_congr rfl fun k _ => congrArg f (Fin.ext rfl))

/-- [a | b] at a column of its left part is `a` there. -/
theorem cat_top {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Ka) :
    concatenate ⟨2, ![M, K]⟩ 1 [⟨⟨2, ![M, Ka]⟩, a⟩, ⟨⟨2, ![M, Kb]⟩, b⟩] hc (ix2 p (topRow hK k)) = a (ix2 p k) :=
  concatenate_pair_apply_left 1 a b hc (ix2 p (topRow hK k)) rfl (ix2 p k) (fun ax => by
    match ax with
    | ⟨0, _⟩ => rfl
    | ⟨1, _⟩ => rfl)

/-- [a | b] at a column of its right part is `b` at that column less the left part's width. -/
theorem cat_bot {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Kb) :
    concatenate ⟨2, ![M, K]⟩ 1 [⟨⟨2, ![M, Ka]⟩, a⟩, ⟨⟨2, ![M, Kb]⟩, b⟩] hc (ix2 p (botRow hK k)) = b (ix2 p k) :=
  concatenate_pair_apply_right 1 a b hc (ix2 p (botRow hK k)) rfl rfl (ix2 p k) (fun ax hne => by
    match ax with
    | ⟨0, _⟩ => rfl
    | ⟨1, _⟩ => exact absurd rfl hne)
    (by show k.val + Ka = Ka + k.val; omega)

/-- THE HOST'S FORM at (p, q): the `dot_general` of the concatenation against the whole weight, plus the bias placed as
    a row and repeated down the rows, is `entry`. -/
theorem host_apply (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) (p : Fin M) (q : Fin N) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias)) (ix2 p q)
      = entry hK a b W bias p q := by
  rw [addf_apply]
  unfold entry
  refine congrArg₂ (· + ·) ?_ ?_
  · refine (Cert.DotSums.dotGeneral_ix2 d prec .single hlb hln hlc hrb hrn hrc hr hs _ W p q).trans ?_
    rw [sum_split hK]
    refine congrArg₂ (· + ·) (Finset.sum_congr rfl fun k _ => ?_) (Finset.sum_congr rfl fun k _ => ?_)
    · rw [cat_top hK hc a b p k]
    · rw [cat_bot hK hc a b p k]
  · rw [Cert.BiasRow.down_apply, Cert.BiasRow.row_apply]

/-- The two block sums along row `p` against column `q` of each block's own weight, plus the row's entry `q`. -/
def tileEntry {A : Nat} (a : (⟨2, ![A, Ka]⟩ : Shape).Idx → EReal) (wa : (⟨2, ![Ka, N]⟩ : Shape).Idx → EReal)
    (b : (⟨2, ![A, Kb]⟩ : Shape).Idx → EReal) (wb : (⟨2, ![Kb, N]⟩ : Shape).Idx → EReal)
    (row : (⟨2, ![1, N]⟩ : Shape).Idx → EReal) (p : Fin A) (q : Fin N) : EReal :=
  (∑ k : Fin Ka, a (ix2 p k) * wa (ix2 k q) + ∑ k : Fin Kb, b (ix2 p k) * wb (ix2 k q)) + row (ix2 (0 : Fin 1) q)

/-- With the weights the upper `Ka` rows and the next `Kb` rows cut from `W`, and the row the bias vector recast as
    [1, N], the tile's entry is the entry of [a | b] · W + bias. -/
theorem tileEntry_cut (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) :
    tileEntry a (extractStridedSlice ⟨2, ![Ka, N]⟩ ![0, 0] W hst) b (extractStridedSlice ⟨2, ![Kb, N]⟩ ![Ka, 0] W hsb)
        (shapeCast ⟨2, ![1, N]⟩ bias hrs) p q
      = entry hK a b W bias p q := by
  unfold tileEntry entry
  refine congrArg₂ (· + ·) (congrArg₂ (· + ·) (Finset.sum_congr rfl fun k _ => ?_) (Finset.sum_congr rfl fun k _ => ?_)) ?_
  · rw [slice2_axis0_apply 0 W hst k q (topRow hK k) (by show k.val = 0 + k.val; omega)]
  · rw [slice2_axis0_apply Ka W hsb k q (botRow hK k) rfl]
  · exact shapeCast_a_1a_apply bias hrs 0 q

/-- THE TILE'S FORM at (p, q): two products into zero accumulators, added, plus a [1, N] row repeated down the tile —
    the two block sums plus the row's entry `q`. The operands' float formats are free. -/
theorem tile_apply {A : Nat} {φ₁ φ₂ φ₃ φ₄ : FTy}
    (d₁ : DotDims ⟨2, ![A, Ka]⟩ ⟨2, ![Ka, N]⟩ ⟨2, ![A, N]⟩)
    (hlb₁ : d₁.lhsBatch = []) (hln₁ : d₁.lhsNonContracting = [0]) (hlc₁ : d₁.lhsContracting = [1])
    (hrb₁ : d₁.rhsBatch = []) (hrn₁ : d₁.rhsNonContracting = [1]) (hrc₁ : d₁.rhsContracting = [0])
    (hr₁ : d₁.contr.rank = 1) (hs₁ : d₁.contr.size ⟨0, by omega⟩ = Ka)
    (d₂ : DotDims ⟨2, ![A, Kb]⟩ ⟨2, ![Kb, N]⟩ ⟨2, ![A, N]⟩)
    (hlb₂ : d₂.lhsBatch = []) (hln₂ : d₂.lhsNonContracting = [0]) (hlc₂ : d₂.lhsContracting = [1])
    (hrb₂ : d₂.rhsBatch = []) (hrn₂ : d₂.rhsNonContracting = [1]) (hrc₂ : d₂.rhsContracting = [0])
    (hr₂ : d₂.contr.rank = 1) (hs₂ : d₂.contr.size ⟨0, by omega⟩ = Kb)
    (prec₁ prec₂ : Option ContractPrecision) (hbr : (⟨2, ![1, N]⟩ : Shape).Broadcasts ⟨2, ![A, N]⟩)
    (a : FVec Ideal ⟨2, ![A, Ka]⟩ φ₁) (wa : FVec Ideal ⟨2, ![Ka, N]⟩ φ₂)
    (b : FVec Ideal ⟨2, ![A, Kb]⟩ φ₃) (wb : FVec Ideal ⟨2, ![Kb, N]⟩ φ₄)
    (row : FVec Ideal ⟨2, ![1, N]⟩ .f32) (p : Fin A) (q : Fin N) :
    addf (addf (matmul d₁ prec₁ a wa (constant (F := Ideal) ⟨2, ![A, N]⟩ .f32 0x00000000#32))
               (matmul d₂ prec₂ b wb (constant (F := Ideal) ⟨2, ![A, N]⟩ .f32 0x00000000#32)))
         (broadcastTo ⟨2, ![A, N]⟩ row hbr) (ix2 p q)
      = tileEntry a wa b wb row p q := by
  unfold tileEntry
  rw [addf_apply, addf_apply]
  refine congrArg₂ (· + ·) (congrArg₂ (· + ·) ?_ ?_) ?_
  · exact Cert.DotSums.matmul_zero_ix2 d₁ prec₁ hlb₁ hln₁ hlc₁ hrb₁ hrn₁ hrc₁ hr₁ hs₁ a wa p q
  · exact Cert.DotSums.matmul_zero_ix2 d₂ prec₂ hlb₂ hln₂ hlc₂ hrb₂ hrn₂ hrc₂ hr₂ hs₂ b wb p q
  · exact broadcastTo_1b_ab_apply row hbr p q

/-! ## The whole arrays -/

/-- The [M, N] array [a | b] · W + bias. -/
def layer (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) : (⟨2, ![M, N]⟩ : Shape).Idx → EReal :=
  fun i => entry hK a b W bias (i 0) (i 1)

/-- The host's form is the array `layer`. -/
theorem host_eq (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias))
      = layer hK a b W bias := by
  funext i
  obtain ⟨p, q, rfl⟩ : ∃ (p : Fin M) (q : Fin N), i = ix2 p q := ⟨i 0, i 1, eq_ix2 i⟩
  exact host_apply hK d hlb hln hlc hrb hrn hrc hr hs prec hc hb1 hb2 a b W bias p q

/-- The array of tile entries, with the weights cut from `W` and the row recast from `bias`, is the array `layer`. -/
theorem tile_cut_eq (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) :
    (fun i : (⟨2, ![M, N]⟩ : Shape).Idx =>
        tileEntry a (extractStridedSlice ⟨2, ![Ka, N]⟩ ![0, 0] W hst) b (extractStridedSlice ⟨2, ![Kb, N]⟩ ![Ka, 0] W hsb)
          (shapeCast ⟨2, ![1, N]⟩ bias hrs) (i 0) (i 1))
      = layer hK a b W bias :=
  funext fun i => tileEntry_cut hK hst hsb hrs a b W bias (i 0) (i 1)

end Cert.SplitLinear

end
-- ==== Proof.LayerSpec.lean ====
/-
  The two node updates of the layer, as functions of the arrays they read.

  A router row gets  x + max ([h1 | h2] · W + bias, 0): the features plus the clamped linear image of its two aggregates laid
  side by side (W is [256, 128], so h1 meets W's upper 128 rows and h2 its lower 128). A packet row gets
  x + max (h · W + bias, 0) with a [128, 128] weight. `routerOut` and `packetOut` are these as whole arrays over any number
  M of rows; the zero they clamp at is kept as the number the word of +0.0 denotes, which both programs write, so it is
  never evaluated.

  Each update is read at an entry (p, q) in the two forms a program may spell it:
    * the host's: one `dot_general` (for the router, of the concatenation against the whole W), the bias placed as a row and
      repeated down the rows, a maximum with a splat zero, the features added (`router_host_eq`, `packet_host_eq`);
    * a tile's: products into zero accumulators (two for the router, one per column block against its own 128 rows of the
      weight, added), a [1, 128] row repeated down the tile, a maximum with a splat scalar zero, the tile's features added
      (`router_tile_apply`, `packet_tile_apply`). The products' operands may be of any float formats: at the exact values a
      change of format is the identity.
  The router's two forms meet through the split of the 256-long contraction into its halves, which uses only that addition
  is associative and commutative, so nothing here needs an entry to be finite.
-/
import proofs.«142274_j33131377721484_2_alg».proof.Proof.LibSplitLinear
import Idealize.ShloMosaic.Lib.IdealHost

open scoped BigOperators

noncomputable section

namespace Cert.NodeUpdate

open Idealize.ShloMosaic Idealize.ShloMosaic.ValueIdx

variable {M A : Nat}

/-- The number the word of +0.0 denotes. -/
abbrev floor0 : EReal := Ideal.ofBits .f32 0x00000000#32

/-- 128 + 128 columns make the 256 rows of the router's weight. -/
theorem halves : 128 + 128 = 256 := rfl

/-- The entry (p, q) of h · W + bias for a [128, 128] weight. -/
def denseEntry (h : (⟨2, ![M, 128]⟩ : Shape).Idx → EReal) (W : (⟨2, ![128, 128]⟩ : Shape).Idx → EReal)
    (bias : (⟨1, ![128]⟩ : Shape).Idx → EReal) (p : Fin M) (q : Fin 128) : EReal :=
  (∑ k : Fin 128, h (ix2 p k) * W (ix2 k q)) + bias (ix1 q)

/-- The router update: x + max ([h1 | h2] · W + bias, 0), entry by entry. -/
def routerOut (x h1 h2 : (⟨2, ![M, 128]⟩ : Shape).Idx → EReal) (W : (⟨2, ![256, 128]⟩ : Shape).Idx → EReal)
    (bias : (⟨1, ![128]⟩ : Shape).Idx → EReal) : (⟨2, ![M, 128]⟩ : Shape).Idx → EReal :=
  fun i => x i + max (Cert.SplitLinear.entry halves h1 h2 W bias (i 0) (i 1)) floor0

/-- The packet update: x + max (h · W + bias, 0), entry by entry. -/
def packetOut (x h : (⟨2, ![M, 128]⟩ : Shape).Idx → EReal) (W : (⟨2, ![128, 128]⟩ : Shape).Idx → EReal)
    (bias : (⟨1, ![128]⟩ : Shape).Idx → EReal) : (⟨2, ![M, 128]⟩ : Shape).Idx → EReal :=
  fun i => x i + max (denseEntry h W bias (i 0) (i 1)) floor0

/-! ## The host's forms -/

/-- A scalar zero splat over any shape reads the number of the word of +0.0. -/
theorem splat0_apply {T : Shape} (h : (⟨0, ![]⟩ : Shape).BroadcastsInDim T ![]) (j : T.Idx) :
    (broadcastInDim T ![] h (constant (F := Ideal) ⟨0, ![]⟩ .f32 0x00000000#32) : FVec Ideal T .f32) j = floor0 :=
  broadcastInDim_scalar_apply h _ j

/-- The host's router update is `routerOut`. -/
theorem router_host_eq (d : DotDims ⟨2, ![M, 256]⟩ ⟨2, ![256, 128]⟩ ⟨2, ![M, 128]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = 256) (prec : Option ContractPrecision)
    (hc : Shape.Concatenates [(⟨2, ![M, 128]⟩ : Shape), ⟨2, ![M, 128]⟩] ⟨2, ![M, 256]⟩ 1)
    (hb1 : (⟨1, ![128]⟩ : Shape).BroadcastsInDim ⟨2, ![1, 128]⟩ ![1])
    (hb2 : (⟨2, ![1, 128]⟩ : Shape).BroadcastsInDim ⟨2, ![M, 128]⟩ ![0, 1])
    (hb0 : (⟨0, ![]⟩ : Shape).BroadcastsInDim ⟨2, ![M, 128]⟩ ![])
    (x h1 h2 : FVec Ideal ⟨2, ![M, 128]⟩ .f32) (W : FVec Ideal ⟨2, ![256, 128]⟩ .f32) (bias : FVec Ideal ⟨1, ![128]⟩ .f32) :
    addf x (maximumf
        (addf (Host.dotGeneral d prec
            (concatenate ⟨2, ![M, 256]⟩ 1 [⟨⟨2, ![M, 128]⟩, h1⟩, ⟨⟨2, ![M, 128]⟩, h2⟩] hc : FVec Ideal ⟨2, ![M, 256]⟩ .f32) W)
          (broadcastInDim ⟨2, ![M, 128]⟩ ![0, 1] hb2 (broadcastInDim ⟨2, ![1, 128]⟩ ![1] hb1 bias)))
        (broadcastInDim ⟨2, ![M, 128]⟩ ![] hb0 (constant (F := Ideal) ⟨0, ![]⟩ .f32 0x00000000#32)))
      = routerOut x h1 h2 W bias := by
  funext i
  obtain ⟨p, q, rfl⟩ : ∃ (p : Fin M) (q : Fin 128), i = ix2 p q := ⟨i 0, i 1, eq_ix2 i⟩
  rw [addf_apply, maximumf_apply, splat0_apply]
  exact congrArg (fun z => x (ix2 p q) + max z floor0)
    (Cert.SplitLinear.host_apply halves d hlb hln hlc hrb hrn hrc hr hs prec hc hb1 hb2 h1 h2 W bias p q)

/-- The host's packet update is `packetOut`. -/
theorem packet_host_eq (d : DotDims ⟨2, ![M, 128]⟩ ⟨2, ![128, 128]⟩ ⟨2, ![M, 128]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = 128) (prec : Option ContractPrecision)
    (hb1 : (⟨1, ![128]⟩ : Shape).BroadcastsInDim ⟨2, ![1, 128]⟩ ![1])
    (hb2 : (⟨2, ![1, 128]⟩ : Shape).BroadcastsInDim ⟨2, ![M, 128]⟩ ![0, 1])
    (hb0 : (⟨0, ![]⟩ : Shape).BroadcastsInDim ⟨2, ![M, 128]⟩ ![])
    (x h : FVec Ideal ⟨2, ![M, 128]⟩ .f32) (W : FVec Ideal ⟨2, ![128, 128]⟩ .f32) (bias : FVec Ideal ⟨1, ![128]⟩ .f32) :
    addf x (maximumf
        (addf (Host.dotGeneral d prec h W)
          (broadcastInDim ⟨2, ![M, 128]⟩ ![0, 1] hb2 (broadcastInDim ⟨2, ![1, 128]⟩ ![1] hb1 bias)))
        (broadcastInDim ⟨2, ![M, 128]⟩ ![] hb0 (constant (F := Ideal) ⟨0, ![]⟩ .f32 0x00000000#32)))
      = packetOut x h W bias := by
  funext i
  obtain ⟨p, q, rfl⟩ : ∃ (p : Fin M) (q : Fin 128), i = ix2 p q := ⟨i 0, i 1, eq_ix2 i⟩
  rw [addf_apply, maximumf_apply, splat0_apply, addf_apply, Cert.BiasRow.down_apply, Cert.BiasRow.row_apply]
  exact congrArg (fun z => x (ix2 p q) + max (z + bias (ix1 q)) floor0)
    (Cert.DotSums.dotGeneral_ix2 d prec .single hlb hln hlc hrb hrn hrc hr hs h W p q)

/-! ## A tile's forms -/

/-- The two block sums along row p of a tile against its two [128, 128] weights, plus the tile's row at q: the entry
    of the router's linear layer as a tile computes it. -/
abbrev routerTileEntry (a : (⟨2, ![A, 128]⟩ : Shape).Idx → EReal) (wa : (⟨2, ![128, 128]⟩ : Shape).Idx → EReal)
    (b : (⟨2, ![A, 128]⟩ : Shape).Idx → EReal) (wb : (⟨2, ![128, 128]⟩ : Shape).Idx → EReal)
    (row : (⟨2, ![1, 128]⟩ : Shape).Idx → EReal) (p : Fin A) (q : Fin 128) : EReal :=
  Cert.SplitLinear.tileEntry a wa b wb row p q

/-- The block sum along row p of a tile against its weight, plus the tile's row at q. -/
def packetTileEntry (a : (⟨2, ![A, 128]⟩ : Shape).Idx → EReal) (w : (⟨2, ![128, 128]⟩ : Shape).Idx → EReal)
    (row : (⟨2, ![1, 128]⟩ : Shape).Idx → EReal) (p : Fin A) (q : Fin 128) : EReal :=
  (∑ k : Fin 128, a (ix2 p k) * w (ix2 k q)) + row (ix2 (0 : Fin 1) q)

/-- The router tile at (p, q): the tile's features plus the clamped tile entry. -/
theorem router_tile_apply {φ₁ φ₂ φ₃ φ₄ : FTy}
    (d : DotDims ⟨2, ![A, 128]⟩ ⟨2, ![128, 128]⟩ ⟨2, ![A, 128]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = 128)
    (prec₁ prec₂ : Option ContractPrecision) (hbr : (⟨2, ![1, 128]⟩ : Shape).Broadcasts ⟨2, ![A, 128]⟩)
    (x : FVec Ideal ⟨2, ![A, 128]⟩ .f32)
    (a : FVec Ideal ⟨2, ![A, 128]⟩ φ₁) (wa : FVec Ideal ⟨2, ![128, 128]⟩ φ₂)
    (b : FVec Ideal ⟨2, ![A, 128]⟩ φ₃) (wb : FVec Ideal ⟨2, ![128, 128]⟩ φ₄)
    (row : FVec Ideal ⟨2, ![1, 128]⟩ .f32) (p : Fin A) (q : Fin 128) :
    addf x (maximumf
        (addf (addf (matmul d prec₁ a wa (constant (F := Ideal) ⟨2, ![A, 128]⟩ .f32 0x00000000#32))
                    (matmul d prec₂ b wb (constant (F := Ideal) ⟨2, ![A, 128]⟩ .f32 0x00000000#32)))
              (broadcastTo ⟨2, ![A, 128]⟩ row hbr))
        (broadcast ⟨2, ![A, 128]⟩ (Scalar.ofBits (F := Ideal) .f32 0x00000000#32))) (ix2 p q)
      = x (ix2 p q) + max (routerTileEntry a wa b wb row p q) floor0 := by
  rw [addf_apply, maximumf_apply]
  exact congrArg (fun z => x (ix2 p q) + max z floor0)
    (Cert.SplitLinear.tile_apply d hlb hln hlc hrb hrn hrc hr hs d hlb hln hlc hrb hrn hrc hr hs prec₁ prec₂ hbr a wa b wb row p q)

/-- The packet tile at (p, q): the tile's features plus the clamped tile entry. -/
theorem packet_tile_apply {φ₁ φ₂ : FTy}
    (d : DotDims ⟨2, ![A, 128]⟩ ⟨2, ![128, 128]⟩ ⟨2, ![A, 128]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = 128)
    (prec : Option ContractPrecision) (hbr : (⟨2, ![1, 128]⟩ : Shape).Broadcasts ⟨2, ![A, 128]⟩)
    (x : FVec Ideal ⟨2, ![A, 128]⟩ .f32)
    (a : FVec Ideal ⟨2, ![A, 128]⟩ φ₁) (w : FVec Ideal ⟨2, ![128, 128]⟩ φ₂)
    (row : FVec Ideal ⟨2, ![1, 128]⟩ .f32) (p : Fin A) (q : Fin 128) :
    addf x (maximumf
        (addf (matmul d prec a w (constant (F := Ideal) ⟨2, ![A, 128]⟩ .f32 0x00000000#32))
              (broadcastTo ⟨2, ![A, 128]⟩ row hbr))
        (broadcast ⟨2, ![A, 128]⟩ (Scalar.ofBits (F := Ideal) .f32 0x00000000#32))) (ix2 p q)
      = x (ix2 p q) + max (packetTileEntry a w row p q) floor0 := by
  rw [addf_apply, maximumf_apply, addf_apply]
  unfold packetTileEntry
  refine congrArg₂ (fun z r => x (ix2 p q) + max (z + r) floor0) ?_ ?_
  · exact Cert.DotSums.matmul_zero_ix2 d prec hlb hln hlc hrb hrn hrc hr hs a w p q
  · exact broadcastTo_1b_ab_apply row hbr p q

/-! ## From a tile's entry to the whole array's -/

/-- A router tile whose rows are rows r₀ + p of the two aggregates, whose weights are the upper and lower 128 rows cut
    from W and whose row is the bias recast as [1, 128], has at (p, q) the entry (r₀ + p, q) of [h1 | h2] · W + bias. -/
theorem routerTileEntry_rows
    (hst : (⟨2, ![256, 128]⟩ : Shape).Slices ![0, 0] ⟨2, ![128, 128]⟩)
    (hsb : (⟨2, ![256, 128]⟩ : Shape).Slices ![128, 0] ⟨2, ![128, 128]⟩)
    (hrs : (⟨1, ![128]⟩ : Shape).ShapeCasts ⟨2, ![1, 128]⟩)
    (h1 h2 : (⟨2, ![M, 128]⟩ : Shape).Idx → EReal) (W : (⟨2, ![256, 128]⟩ : Shape).Idx → EReal)
    (bias : (⟨1, ![128]⟩ : Shape).Idx → EReal)
    (a b : (⟨2, ![A, 128]⟩ : Shape).Idx → EReal) (p : Fin A) (r : Fin M) (q : Fin 128)
    (ha : ∀ k : Fin 128, a (ix2 p k) = h1 (ix2 r k)) (hb : ∀ k : Fin 128, b (ix2 p k) = h2 (ix2 r k)) :
    routerTileEntry a (extractStridedSlice ⟨2, ![128, 128]⟩ ![0, 0] W hst) b
        (extractStridedSlice ⟨2, ![128, 128]⟩ ![128, 0] W hsb) (shapeCast ⟨2, ![1, 128]⟩ bias hrs) p q
      = Cert.SplitLinear.entry halves h1 h2 W bias r q := by
  rw [← Cert.SplitLinear.tileEntry_cut halves hst hsb hrs h1 h2 W bias r q]
  unfold routerTileEntry Cert.SplitLinear.tileEntry
  simp only [ha, hb]

/-- A packet tile whose rows are rows r₀ + p of the aggregate and whose row is the bias recast as [1, 128] has at (p, q)
    the entry (r₀ + p, q) of h · W + bias. -/
theorem packetTileEntry_rows (hrs : (⟨1, ![128]⟩ : Shape).ShapeCasts ⟨2, ![1, 128]⟩)
    (h : (⟨2, ![M, 128]⟩ : Shape).Idx → EReal) (W : (⟨2, ![128, 128]⟩ : Shape).Idx → EReal)
    (bias : (⟨1, ![128]⟩ : Shape).Idx → EReal)
    (a : (⟨2, ![A, 128]⟩ : Shape).Idx → EReal) (p : Fin A) (r : Fin M) (q : Fin 128)
    (ha : ∀ k : Fin 128, a (ix2 p k) = h (ix2 r k)) :
    packetTileEntry a W (shapeCast ⟨2, ![1, 128]⟩ bias hrs) p q = denseEntry h W bias r q := by
  unfold packetTileEntry denseEntry
  rw [shapeCast_a_1a_apply bias hrs 0 q]
  simp only [ha]

/-! ## The whole arrays in a tile's vocabulary -/

/-- The router update over all M rows, written with a tile's operands: x + max (tile entry, 0). -/
def routerTiles (x a : (⟨2, ![M, 128]⟩ : Shape).Idx → EReal) (wa : (⟨2, ![128, 128]⟩ : Shape).Idx → EReal)
    (b : (⟨2, ![M, 128]⟩ : Shape).Idx → EReal) (wb : (⟨2, ![128, 128]⟩ : Shape).Idx → EReal)
    (row : (⟨2, ![1, 128]⟩ : Shape).Idx → EReal) : (⟨2, ![M, 128]⟩ : Shape).Idx → EReal :=
  fun i => x i + max (routerTileEntry a wa b wb row (i 0) (i 1)) floor0

/-- The packet update over all M rows, written with a tile's operands. -/
def packetTiles (x a : (⟨2, ![M, 128]⟩ : Shape).Idx → EReal) (w : (⟨2, ![128, 128]⟩ : Shape).Idx → EReal)
    (row : (⟨2, ![1, 128]⟩ : Shape).Idx → EReal) : (⟨2, ![M, 128]⟩ : Shape).Idx → EReal :=
  fun i => x i + max (packetTileEntry a w row (i 0) (i 1)) floor0

/-- A router tile whose feature entry (p, q) is the features' entry (r, q) and whose aggregate rows p are the aggregates' rows r
    computes at (p, q) the whole-array update's entry (r, q). -/
theorem routerTile_eq_whole (xb ab bb : (⟨2, ![A, 128]⟩ : Shape).Idx → EReal)
    (wa wb : (⟨2, ![128, 128]⟩ : Shape).Idx → EReal) (row : (⟨2, ![1, 128]⟩ : Shape).Idx → EReal)
    (x a b : (⟨2, ![M, 128]⟩ : Shape).Idx → EReal) (p : Fin A) (r : Fin M) (q : Fin 128)
    (hx : xb (ix2 p q) = x (ix2 r q)) (ha : ∀ k : Fin 128, ab (ix2 p k) = a (ix2 r k))
    (hb : ∀ k : Fin 128, bb (ix2 p k) = b (ix2 r k)) :
    xb (ix2 p q) + max (routerTileEntry ab wa bb wb row p q) floor0 = routerTiles x a wa b wb row (ix2 r q) := by
  show _ = x (ix2 r q) + max (routerTileEntry a wa b wb row r q) floor0
  rw [hx]
  unfold routerTileEntry Cert.SplitLinear.tileEntry
  simp only [ha, hb]

/-- A packet tile whose feature entry (p, q) is the features' entry (r, q) and whose aggregate row p is the aggregate's row r
    computes at (p, q) the whole-array update's entry (r, q). -/
theorem packetTile_eq_whole (xb ab : (⟨2, ![A, 128]⟩ : Shape).Idx → EReal)
    (w : (⟨2, ![128, 128]⟩ : Shape).Idx → EReal) (row : (⟨2, ![1, 128]⟩ : Shape).Idx → EReal)
    (x a : (⟨2, ![M, 128]⟩ : Shape).Idx → EReal) (p : Fin A) (r : Fin M) (q : Fin 128)
    (hx : xb (ix2 p q) = x (ix2 r q)) (ha : ∀ k : Fin 128, ab (ix2 p k) = a (ix2 r k)) :
    xb (ix2 p q) + max (packetTileEntry ab w row p q) floor0 = packetTiles x a w row (ix2 r q) := by
  show _ = x (ix2 r q) + max (packetTileEntry a w row r q) floor0
  rw [hx]
  unfold packetTileEntry
  simp only [ha]

/-- With the weights the upper and lower 128 rows cut from W and the row the bias recast as [1, 128], the router update in a
    tile's vocabulary is `routerOut`. -/
theorem routerTiles_cut
    (hst : (⟨2, ![256, 128]⟩ : Shape).Slices ![0, 0] ⟨2, ![128, 128]⟩)
    (hsb : (⟨2, ![256, 128]⟩ : Shape).Slices ![128, 0] ⟨2, ![128, 128]⟩)
    (hrs : (⟨1, ![128]⟩ : Shape).ShapeCasts ⟨2, ![1, 128]⟩)
    (x h1 h2 : (⟨2, ![M, 128]⟩ : Shape).Idx → EReal) (W : (⟨2, ![256, 128]⟩ : Shape).Idx → EReal)
    (bias : (⟨1, ![128]⟩ : Shape).Idx → EReal) :
    routerTiles x h1 (extractStridedSlice ⟨2, ![128, 128]⟩ ![0, 0] W hst) h2
        (extractStridedSlice ⟨2, ![128, 128]⟩ ![128, 0] W hsb) (shapeCast ⟨2, ![1, 128]⟩ bias hrs)
      = routerOut x h1 h2 W bias :=
  funext fun i => congrArg (fun z => x i + max z floor0)
    (routerTileEntry_rows hst hsb hrs h1 h2 W bias h1 h2 (i 0) (i 0) (i 1) (fun _ => rfl) (fun _ => rfl))

/-- With the row the bias recast as [1, 128], the packet update in a tile's vocabulary is `packetOut`. -/
theorem packetTiles_cast (hrs : (⟨1, ![128]⟩ : Shape).ShapeCasts ⟨2, ![1, 128]⟩)
    (x h : (⟨2, ![M, 128]⟩ : Shape).Idx → EReal) (W : (⟨2, ![128, 128]⟩ : Shape).Idx → EReal)
    (bias : (⟨1, ![128]⟩ : Shape).Idx → EReal) :
    packetTiles x h W (shapeCast ⟨2, ![1, 128]⟩ bias hrs) = packetOut x h W bias :=
  funext fun i => congrArg (fun z => x i + max z floor0)
    (packetTileEntry_rows hrs h W bias h (i 0) (i 0) (i 1) (fun _ => rfl))

end Cert.NodeUpdate

end
-- ==== Proof.RouterValue.lean ====
/-
  What the router region leaves in its result array, as one function of the arrays it finds at its entry.

  The region's grid has 20 points. Point t stages rows 5000·t … 5000·t + 4999 of the two aggregates and of the features,
  the two [128, 128] weights and the [1, 128] bias row whole, and writes back rows 5000·t … of the result. Its body stores,
  at row p and column q of the tile, the tile's feature entry plus the clamped entry of the tile's linear layer
  (`tile_apply`). Row p of the tile is row 5000·t + p of each array (`row_emb`, the block reads), so what point t writes back is
  block t of ONE whole-array function, the update written over all 100000 rows (`flushed_eq`); the 20 blocks cover the array
  (row r lies in block r / 5000), so the array ends holding that function (`final`).
-/
import proofs.«142274_j33131377721484_2_alg».proof.Proof.Patched.KernelIdealFrame
import proofs.«142274_j33131377721484_2_alg».proof.Proof.LayerSpec
import Idealize.ShloMosaic.Lib.Pipeline.Value
import Idealize.ShloMosaic.Lib.ValueIdx

noncomputable section

namespace Cert.KernelIdeal.RouterValue

open Cert.KernelIdeal Cert.KernelIdeal.Gen Cert.KernelIdeal.GenP Cert.NodeUpdate
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's stored tile at (p, q): the feature tile's entry plus the clamped entry of the tile's linear layer. The two
    weights enter the products rounded to a narrower format, which at the exact values changes nothing. -/
theorem tile_apply (x0 x1 : FVec Ideal S5000x128 .bf16) (x2 : FVec Ideal S5000x128 .f32) (x3 x4 : FVec Ideal S128x128 .f32)
    (x5 : FVec Ideal S1x128 .f32) (p : Fin 5000) (q : Fin 128) :
    out0_6 (F := Ideal) x0 x1 x2 x3 x4 x5 (ix2 p q) = x2 (ix2 p q) + max (routerTileEntry x0 x3 x1 x4 x5 p q) floor0 := by
  unfold out0_6
  rw [View.canon_unit_zero hz]
  simp only [View.ld_unit_zero (S := S5000x128) hz, View.ld_unit_zero (S := S128x128) hz, View.ld_unit_zero (S := S1x128) hz]
  unfold k0_pay1
  simp only [shapeCast_self]
  exact router_tile_apply dot_S5000x128_S128x128_S5000x128_1_0_0_1_n_n rfl rfl rfl rfl rfl rfl rfl rfl none none
    broadcasts_S1x128_S5000x128 x2 x0 (truncf .bf16 x3 bitsLt_bf16_f32) x1 (truncf .bf16 x4 bitsLt_bf16_f32) x5 p q

/-- The printed index maps, decided over the 20 points: the row-blocked windows sit at block (t, 0), the whole ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row p of point t's tile is row 5000·t + p of the result array. -/
theorem row_emb (t : Fin cfg0.N) (p : Fin 5000) (q : Fin 128) (r : Fin 100000) (hr : r.val = 5000 * t.val + p.val) :
    ((cfg0.win 6).blk t).view.emb (ix2 p q) = (ix2 r q : S100000x128.Idx) := by
  obtain ⟨-, -, -, -, -, -, -, -, -, -, -, -, e0, e1⟩ := idx_facts t
  funext a; apply Fin.ext
  match a with
  | ⟨0, _⟩ => show win0_6.index t (0 : Fin 2) * 5000 + 1 * p.val = r.val; omega
  | ⟨1, _⟩ => show win0_6.index t (1 : Fin 2) * 128 + 1 * q.val = q.val; omega

/-- The first aggregate's tile at point t reads rows 5000·t … of its array. -/
theorem read_h1 (c : Dev nD) (t : Fin cfg0.N) (p : Fin 5000) (k : Fin 128) (r : Fin 100000) (hr : r.val = 5000 * t.val + p.val) :
    (iblk0 V c 0 t : FVec Ideal S5000x128 .bf16) (ix2 p k) = (V c main_v44 : S100000x128.Idx → EReal) (ix2 r k) := by
  obtain ⟨e0, e1, -⟩ := idx_facts t
  show (V c main_v44 : S100000x128.Idx → EReal) (((cfg0.win 0).blk t).view.emb (ix2 p k)) = _
  refine congrArg (V c main_v44 : S100000x128.Idx → EReal) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The second aggregate's tile at point t reads rows 5000·t … of its array. -/
theorem read_h2 (c : Dev nD) (t : Fin cfg0.N) (p : Fin 5000) (k : Fin 128) (r : Fin 100000) (hr : r.val = 5000 * t.val + p.val) :
    (iblk0 V c 1 t : FVec Ideal S5000x128 .bf16) (ix2 p k) = (V c main_v45 : S100000x128.Idx → EReal) (ix2 r k) := by
  obtain ⟨-, -, e0, e1, -⟩ := idx_facts t
  show (V c main_v45 : S100000x128.Idx → EReal) (((cfg0.win 1).blk t).view.emb (ix2 p k)) = _
  refine congrArg (V c main_v45 : S100000x128.Idx → EReal) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The feature tile at point t reads rows 5000·t … of the features. -/
theorem read_feat (c : Dev nD) (t : Fin cfg0.N) (p : Fin 5000) (q : Fin 128) (r : Fin 100000) (hr : r.val = 5000 * t.val + p.val) :
    (iblk0 V c 2 t : FVec Ideal S5000x128 .f32) (ix2 p q) = (V c main_arg0 : S100000x128.Idx → EReal) (ix2 r q) := by
  obtain ⟨-, -, -, -, e0, e1, -⟩ := idx_facts t
  show (V c main_arg0 : S100000x128.Idx → EReal) (((cfg0.win 2).blk t).view.emb (ix2 p q)) = _
  refine congrArg (V c main_arg0 : S100000x128.Idx → EReal) (funext fun a => Fin.ext ?_)
  match a with
  | ⟨0, _⟩ => show win0_2.index t (0 : Fin 2) * 5000 + 1 * p.val = r.val; omega
  | ⟨1, _⟩ => show win0_2.index t (1 : Fin 2) * 128 + 1 * q.val = q.val; omega

/-- The upper weight's window is the whole [128, 128] array at every point. -/
theorem read_wtop (c : Dev nD) (t : Fin cfg0.N) : (iblk0 V c 3 t : FVec Ideal S128x128 .f32) = (V c main_v47 : S128x128.Idx → EReal) := by
  obtain ⟨-, -, -, -, -, -, e0, e1, -⟩ := idx_facts t
  funext y
  show (V c main_v47 : S128x128.Idx → EReal) (((cfg0.win 3).blk t).view.emb y) = _
  refine congrArg (V c main_v47 : S128x128.Idx → EReal) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The lower weight's window is the whole [128, 128] array at every point. -/
theorem read_wbot (c : Dev nD) (t : Fin cfg0.N) : (iblk0 V c 4 t : FVec Ideal S128x128 .f32) = (V c main_v48 : S128x128.Idx → EReal) := by
  obtain ⟨-, -, -, -, -, -, -, -, e0, e1, -⟩ := idx_facts t
  funext y
  show (V c main_v48 : S128x128.Idx → EReal) (((cfg0.win 4).blk t).view.emb y) = _
  refine congrArg (V c main_v48 : S128x128.Idx → EReal) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias row's window is the whole [1, 128] array at every point. -/
theorem read_row (c : Dev nD) (t : Fin cfg0.N) : (iblk0 V c 5 t : FVec Ideal S1x128 .f32) = (V c main_v49 : S1x128.Idx → EReal) := by
  obtain ⟨-, -, -, -, -, -, -, -, -, -, e0, e1, -⟩ := idx_facts t
  funext y
  show (V c main_v49 : S1x128.Idx → EReal) (((cfg0.win 5).blk t).view.emb y) = _
  refine congrArg (V c main_v49 : S1x128.Idx → EReal) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The update over all 100000 rows, of the arrays the region finds at its entry. -/
abbrev whole (c : Dev nD) : S100000x128.Idx → EReal :=
  routerTiles (V c main_arg0) (V c main_v44) (V c main_v47) (V c main_v45) (V c main_v48) (V c main_v49)

/-- What point t writes back is block t of the update over all rows. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  funext j
  obtain ⟨p, q, rfl⟩ : ∃ (p : Fin 5000) (q : Fin 128), j = ix2 p q := ⟨j 0, j 1, eq_ix2 j⟩
  have hp : p.val < 5000 := p.isLt
  have ht : t.val < 20 := Nat.lt_of_lt_of_eq t.isLt N_0
  let r : Fin 100000 := ⟨5000 * t.val + p.val, by omega⟩
  have hr : r.val = 5000 * t.val + p.val := rfl
  show out0_6 (F := Ideal) (iblk0 V c 0 t) (iblk0 V c 1 t) (iblk0 V c 2 t) (iblk0 V c 3 t) (iblk0 V c 4 t) (iblk0 V c 5 t) (ix2 p q)
    = whole V c (((cfg0.win 6).blk t).view.emb (ix2 p q))
  rw [tile_apply, row_emb t p q r hr, read_wtop V c t, read_wbot V c t, read_row V c t]
  exact routerTile_eq_whole (iblk0 V c 2 t) (iblk0 V c 0 t) (iblk0 V c 1 t) (V c main_v47) (V c main_v48) (V c main_v49)
    (V c main_arg0) (V c main_v44) (V c main_v45) p r q (read_feat V c t p q r hr)
    (fun k => read_h1 V c t p k r hr) (fun k => read_h2 V c t p k r hr)

/-- An index of the result array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v51).slice (win0_6.rect t)).set ↔ _
  rw [View.set_slice_whole, Rect.mem_set_unit]
  exact Iff.rfl

/-- Every row of the result array lies in the block of the point row / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have htv : t.val = (i 0).val / 5000 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE RESULT ARRAY after the region: the update over all rows, of the arrays found at the region's entry. -/
theorem final (c : Dev nD) : (dat0 V c).arrAt 6 cfg0.N = whole V c :=
  (dat0 V c).arrAt_eq_of_cover 6 (whole V c) (fun t _ => flushed_eq V c t) cover

end Cert.KernelIdeal.RouterValue

end
-- ==== Proof.PacketValue.lean ====
/-
  What the packet region leaves in its result array, as one function of the arrays it finds at its entry.

  The region's grid has 20 points. Point t stages rows 10000·t … 10000·t + 9999 of the aggregate and of the features, the
  [128, 128] weight and the [1, 128] bias row whole, and writes back rows 10000·t … of the result. Its body stores, at row p
  and column q of the tile, the tile's feature entry plus the clamped entry of the tile's linear layer (`tile_apply`). Row p
  of the tile is row 10000·t + p of each array (`row_emb`, the block reads), so what point t writes back is block t of ONE
  whole-array function, the update written over all 200000 rows (`flushed_eq`); the 20 blocks cover the array (row r lies in
  block r / 10000), so the array ends holding that function (`final`).
-/
import proofs.«142274_j33131377721484_2_alg».proof.Proof.Patched.KernelIdealFrame
import proofs.«142274_j33131377721484_2_alg».proof.Proof.LayerSpec
import Idealize.ShloMosaic.Lib.Pipeline.Value
import Idealize.ShloMosaic.Lib.ValueIdx

noncomputable section

namespace Cert.KernelIdeal.PacketValue

open Cert.KernelIdeal Cert.KernelIdeal.Gen Cert.KernelIdeal.GenP Cert.NodeUpdate
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's stored tile at (p, q): the feature tile's entry plus the clamped entry of the tile's linear layer. The
    weight enters the product rounded to a narrower format, which at the exact values changes nothing. -/
theorem tile_apply (x0 : FVec Ideal S10000x128 .bf16) (x1 : FVec Ideal S10000x128 .f32) (x2 : FVec Ideal S128x128 .f32)
    (x3 : FVec Ideal S1x128 .f32) (p : Fin 10000) (q : Fin 128) :
    out1_4 (F := Ideal) x0 x1 x2 x3 (ix2 p q) = x1 (ix2 p q) + max (packetTileEntry x0 x2 x3 p q) floor0 := by
  unfold out1_4
  rw [View.canon_unit_zero hz]
  simp only [View.ld_unit_zero (S := S10000x128) hz, View.ld_unit_zero (S := S128x128) hz, View.ld_unit_zero (S := S1x128) hz]
  unfold k1_pay1
  simp only [shapeCast_self]
  exact packet_tile_apply dot_S10000x128_S128x128_S10000x128_1_0_0_1_n_n rfl rfl rfl rfl rfl rfl rfl rfl none
    broadcasts_S1x128_S10000x128 x1 x0 (truncf .bf16 x2 bitsLt_bf16_f32) x3 p q

/-- The printed index maps, decided over the 20 points: the row-blocked windows sit at block (t, 0), the whole ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of point t's tile is row 10000·t + p of the result array. -/
theorem row_emb (t : Fin cfg1.N) (p : Fin 10000) (q : Fin 128) (r : Fin 200000) (hr : r.val = 10000 * t.val + p.val) :
    ((cfg1.win 4).blk t).view.emb (ix2 p q) = (ix2 r q : S200000x128.Idx) := by
  obtain ⟨-, -, -, -, -, -, -, -, e0, e1⟩ := idx_facts t
  funext a; apply Fin.ext
  match a with
  | ⟨0, _⟩ => show win1_4.index t (0 : Fin 2) * 10000 + 1 * p.val = r.val; omega
  | ⟨1, _⟩ => show win1_4.index t (1 : Fin 2) * 128 + 1 * q.val = q.val; omega

/-- The aggregate's tile at point t reads rows 10000·t … of its array. -/
theorem read_h (c : Dev nD) (t : Fin cfg1.N) (p : Fin 10000) (k : Fin 128) (r : Fin 200000) (hr : r.val = 10000 * t.val + p.val) :
    (iblk1 V c 0 t : FVec Ideal S10000x128 .bf16) (ix2 p k) = (V c main_v46 : S200000x128.Idx → EReal) (ix2 r k) := by
  obtain ⟨e0, e1, -⟩ := idx_facts t
  show (V c main_v46 : S200000x128.Idx → EReal) (((cfg1.win 0).blk t).view.emb (ix2 p k)) = _
  refine congrArg (V c main_v46 : S200000x128.Idx → EReal) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The feature tile at point t reads rows 10000·t … of the features. -/
theorem read_feat (c : Dev nD) (t : Fin cfg1.N) (p : Fin 10000) (q : Fin 128) (r : Fin 200000) (hr : r.val = 10000 * t.val + p.val) :
    (iblk1 V c 1 t : FVec Ideal S10000x128 .f32) (ix2 p q) = (V c main_arg1 : S200000x128.Idx → EReal) (ix2 r q) := by
  obtain ⟨-, -, e0, e1, -⟩ := idx_facts t
  show (V c main_arg1 : S200000x128.Idx → EReal) (((cfg1.win 1).blk t).view.emb (ix2 p q)) = _
  refine congrArg (V c main_arg1 : S200000x128.Idx → EReal) (funext fun a => Fin.ext ?_)
  match a with
  | ⟨0, _⟩ => show win1_1.index t (0 : Fin 2) * 10000 + 1 * p.val = r.val; omega
  | ⟨1, _⟩ => show win1_1.index t (1 : Fin 2) * 128 + 1 * q.val = q.val; omega

/-- The weight's window is the whole [128, 128] array at every point. -/
theorem read_w (c : Dev nD) (t : Fin cfg1.N) : (iblk1 V c 2 t : FVec Ideal S128x128 .f32) = (V c main_arg4 : S128x128.Idx → EReal) := by
  obtain ⟨-, -, -, -, e0, e1, -⟩ := idx_facts t
  funext y
  show (V c main_arg4 : S128x128.Idx → EReal) (((cfg1.win 2).blk t).view.emb y) = _
  refine congrArg (V c main_arg4 : S128x128.Idx → EReal) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's window is the whole [1, 128] array at every point. -/
theorem read_row (c : Dev nD) (t : Fin cfg1.N) : (iblk1 V c 3 t : FVec Ideal S1x128 .f32) = (V c main_v50 : S1x128.Idx → EReal) := by
  obtain ⟨-, -, -, -, -, -, e0, e1, -⟩ := idx_facts t
  funext y
  show (V c main_v50 : S1x128.Idx → EReal) (((cfg1.win 3).blk t).view.emb y) = _
  refine congrArg (V c main_v50 : S1x128.Idx → EReal) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The update over all 200000 rows, of the arrays the region finds at its entry. -/
abbrev whole (c : Dev nD) : S200000x128.Idx → EReal :=
  packetTiles (V c main_arg1) (V c main_v46) (V c main_arg4) (V c main_v50)

/-- What point t writes back is block t of the update over all rows. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  funext j
  obtain ⟨p, q, rfl⟩ : ∃ (p : Fin 10000) (q : Fin 128), j = ix2 p q := ⟨j 0, j 1, eq_ix2 j⟩
  have hp : p.val < 10000 := p.isLt
  have ht : t.val < 20 := Nat.lt_of_lt_of_eq t.isLt N_1
  let r : Fin 200000 := ⟨10000 * t.val + p.val, by omega⟩
  have hr : r.val = 10000 * t.val + p.val := rfl
  show out1_4 (F := Ideal) (iblk1 V c 0 t) (iblk1 V c 1 t) (iblk1 V c 2 t) (iblk1 V c 3 t) (ix2 p q)
    = whole V c (((cfg1.win 4).blk t).view.emb (ix2 p q))
  rw [tile_apply, row_emb t p q r hr, read_w V c t, read_row V c t]
  exact packetTile_eq_whole (iblk1 V c 1 t) (iblk1 V c 0 t) (V c main_arg4) (V c main_v50)
    (V c main_arg1) (V c main_v46) p r q (read_feat V c t p q r hr) (fun k => read_h V c t p k r hr)

/-- An index of the result array is in point t's block iff each coordinate is in the block's range on its axis. -/
theorem mem_blk (t : Fin cfg1.N) (i : S200000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v52).slice (win1_4.rect t)).set ↔ _
  rw [View.set_slice_whole, Rect.mem_set_unit]
  exact Iff.rfl

/-- Every row of the result array lies in the block of the point row / 10000. -/
theorem cover (i : S200000x128.Idx) : ∃ t : Fin cfg1.N, (cfg1.win 4).flush t = true ∧ i ∈ ((cfg1.win 4).blk t).view.set := by
  have hi0 : (i 0).val < 200000 := (i 0).isLt
  have hi1 : (i 1).val < 128 := (i 1).isLt
  have hN : cfg1.N = 20 := N_1
  let t : Fin cfg1.N := ⟨(i 0).val / 10000, by rw [hN]; omega⟩
  have htv : t.val = (i 0).val / 10000 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE RESULT ARRAY after the region: the update over all rows, of the arrays found at the region's entry. -/
theorem final (c : Dev nD) : (dat1 V c).arrAt 4 cfg1.N = whole V c :=
  (dat1 V c).arrAt_eq_of_cover 4 (whole V c) (fun t _ => flushed_eq V c t) cover

end Cert.KernelIdeal.PacketValue

end
-- ==== Proof.KernelHost.lean ====
/-
  What the kernel's host operations leave in the arrays its two regions read.

  Before the regions, @main computes three aggregates over the edges of a graph, each a row gather followed by a scatter-add
  of the gathered rows into a zero array, the indices first normalised (a negative index counts from the end of its axis) and laid
  out as a column:
    * `routerFromRouters`: rows of the router features, gathered by the first edge list's sources and summed at its targets;
    * `routerFromPackets`: rows of the packet features, gathered by the second list's sources and summed at its targets;
    * `packetMean`: rows of the router features, gathered by the third list's sources and summed at its targets, each sum
      divided by max (number of edges into the target, 1).
  The features are rounded to a narrower float format before the gathers, widened after them, and each aggregate is rounded
  again at the end; these roundings are kept here as written (over any float instance). The weights' two row blocks are
  slices of the [256, 128] weight, and each bias is recast as a [1, 128] row.
  `entry_…`: the contents of each array a region stages, when the first region is entered, as these terms of the launch
  contents of the arguments. No operation of the host stretch writes an argument.
-/
import proofs.«142274_j33131377721484_2_alg».proof.Proof.Patched.KernelIdealFrame
import Idealize.ShloMosaic.Lib.StableHlo.Run

noncomputable section

namespace Cert.KernelIdeal.HostPrefix

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- An edge list's end points: 600000 words. -/
abbrev Ends (F : FTy → Type) [FloatOps F] := (⟨S600000, .i32⟩ : BufTy).Contents (Elt F)

/-- The index normalisation for an axis of length n: a negative index counts from the end. -/
def fromEnd (n : BitVec 32) (s : Ends F) : Ends F :=
  select (cmpi .slt s (broadcastInDim S600000 ![] bcast_S_S600000 (constantI S_ 32 0#32)))
    (addi s (broadcastInDim S600000 ![] bcast_S_S600000 (constantI S_ 32 n))) s

/-- The indices as the [600000, 1] column a gather or a scatter takes. -/
def column (s : Ends F) : (⟨S600000x1, .i32⟩ : BufTy).Contents (Elt F) :=
  broadcastInDim S600000x1 ![0] bcast_S600000_S600000x1_0 s

/-- Router rows summed over the router-to-router edges. -/
def routerFromRouters (x0 : (⟨S100000x128, .f32⟩ : BufTy).Contents (Elt F)) (src dst : Ends F) :
    (⟨S100000x128, .bf16⟩ : BufTy).Contents (Elt F) :=
  truncf .bf16 (Host.scatterAdd scatter_S100000x128_S600000x1_S600000x128_1_0_0_1
      (broadcastInDim S100000x128 ![] bcast_S_S100000x128 (constant S_ .f32 0x00000000#32)) (column dst)
      (extf .f32 (Host.gather gather_S100000x128_S600000x1_S600000x128_1_0_n_n_0_1_1128 (truncf .bf16 x0 bitsLt_bf16_f32)
        (column (fromEnd 100000#32 src))) bitsLt_bf16_f32)) bitsLt_bf16_f32

/-- Packet rows summed over the packet-to-router edges. -/
def routerFromPackets (x1 : (⟨S200000x128, .f32⟩ : BufTy).Contents (Elt F)) (src dst : Ends F) :
    (⟨S100000x128, .bf16⟩ : BufTy).Contents (Elt F) :=
  truncf .bf16 (Host.scatterAdd scatter_S100000x128_S600000x1_S600000x128_1_0_0_1
      (broadcastInDim S100000x128 ![] bcast_S_S100000x128 (constant S_ .f32 0x00000000#32)) (column dst)
      (extf .f32 (Host.gather gather_S200000x128_S600000x1_S600000x128_1_0_n_n_0_1_1128 (truncf .bf16 x1 bitsLt_bf16_f32)
        (column (fromEnd 200000#32 src))) bitsLt_bf16_f32)) bitsLt_bf16_f32

/-- Router rows averaged over the router-to-packet edges into each packet (the sum where no edge arrives). -/
def packetMean (x0 : (⟨S100000x128, .f32⟩ : BufTy).Contents (Elt F)) (src dst : Ends F) :
    (⟨S200000x128, .bf16⟩ : BufTy).Contents (Elt F) :=
  truncf .bf16 (Host.divf
      (Host.scatterAdd scatter_S200000x128_S600000x1_S600000x128_1_0_0_1
        (broadcastInDim S200000x128 ![] bcast_S_S200000x128 (constant S_ .f32 0x00000000#32)) (column dst)
        (extf .f32 (Host.gather gather_S100000x128_S600000x1_S600000x128_1_0_n_n_0_1_1128 (truncf .bf16 x0 bitsLt_bf16_f32)
          (column (fromEnd 100000#32 src))) bitsLt_bf16_f32))
      (broadcastInDim S200000x128 ![0, 1] bcast_S200000x1_S200000x128_0_1
        (broadcastInDim S200000x1 ![0] bcast_S200000_S200000x1_0
          (maximumf
            (Host.scatterAdd scatter_S200000_S600000x1_S600000_n_0_0_1
              (broadcastInDim S200000 ![] bcast_S_S200000 (constant S_ .f32 0x00000000#32)) (column dst)
              (broadcastInDim S600000 ![] bcast_S_S600000 (constant S_ .f32 0x3F800000#32)))
            (broadcastInDim S200000 ![] bcast_S_S200000 (constant S_ .f32 0x3F800000#32)))))) bitsLt_bf16_f32

variable (m : (ℓ : Loc nD τ sig) → Buf (Elt F) ℓ) (ρ : Dev nD → PrngReg)

set_option maxRecDepth 8192 in
set_option maxHeartbeats 4000000 in
theorem entry_v44 (c : Dev nD) : V1 m ρ c main_v44
    = routerFromRouters (m ((c.tc : Thread nD τ).loc main_arg0)) (m ((c.tc : Thread nD τ).loc main_arg6)) (m ((c.tc : Thread nD τ).loc main_arg7)) := by
  show StableHlo.after hostOps0 (W0 m ρ c) (Proc.devRef .tc main_v44) = _
  after_results_simp <;> rfl

set_option maxRecDepth 8192 in
set_option maxHeartbeats 4000000 in
theorem entry_v45 (c : Dev nD) : V1 m ρ c main_v45
    = routerFromPackets (m ((c.tc : Thread nD τ).loc main_arg1)) (m ((c.tc : Thread nD τ).loc main_arg8)) (m ((c.tc : Thread nD τ).loc main_arg9)) := by
  show StableHlo.after hostOps0 (W0 m ρ c) (Proc.devRef .tc main_v45) = _
  after_results_simp <;> rfl

set_option maxRecDepth 8192 in
set_option maxHeartbeats 4000000 in
theorem entry_v46 (c : Dev nD) : V1 m ρ c main_v46
    = packetMean (m ((c.tc : Thread nD τ).loc main_arg0)) (m ((c.tc : Thread nD τ).loc main_arg10)) (m ((c.tc : Thread nD τ).loc main_arg11)) := by
  show StableHlo.after hostOps0 (W0 m ρ c) (Proc.devRef .tc main_v46) = _
  after_results_simp <;> rfl

set_option maxRecDepth 8192 in
set_option maxHeartbeats 4000000 in
theorem entry_v47 (c : Dev nD) : V1 m ρ c main_v47
    = extractStridedSlice S128x128 ![0, 0] (m ((c.tc : Thread nD τ).loc main_arg2)) slices_S256x128_S128x128_0_0 := by
  show StableHlo.after hostOps0 (W0 m ρ c) (Proc.devRef .tc main_v47) = _
  after_results_simp <;> rfl

set_option maxRecDepth 8192 in
set_option maxHeartbeats 4000000 in
theorem entry_v48 (c : Dev nD) : V1 m ρ c main_v48
    = extractStridedSlice S128x128 ![128, 0] (m ((c.tc : Thread nD τ).loc main_arg2)) slices_S256x128_S128x128_128_0 := by
  show StableHlo.after hostOps0 (W0 m ρ c) (Proc.devRef .tc main_v48) = _
  after_results_simp <;> rfl

set_option maxRecDepth 8192 in
set_option maxHeartbeats 4000000 in
theorem entry_v49 (c : Dev nD) : V1 m ρ c main_v49
    = shapeCast S1x128 (m ((c.tc : Thread nD τ).loc main_arg3)) shapeCasts_S128_S1x128 := by
  show StableHlo.after hostOps0 (W0 m ρ c) (Proc.devRef .tc main_v49) = _
  after_results_simp <;> rfl

set_option maxRecDepth 8192 in
set_option maxHeartbeats 4000000 in
theorem entry_v50 (c : Dev nD) : V1 m ρ c main_v50
    = shapeCast S1x128 (m ((c.tc : Thread nD τ).loc main_arg5)) shapeCasts_S128_S1x128 := by
  show StableHlo.after hostOps0 (W0 m ρ c) (Proc.devRef .tc main_v50) = _
  after_results_simp <;> rfl

set_option maxRecDepth 8192 in
set_option maxHeartbeats 4000000 in
theorem entry_arg0 (c : Dev nD) : V1 m ρ c main_arg0 = m ((c.tc : Thread nD τ).loc main_arg0) := by
  show StableHlo.after hostOps0 (W0 m ρ c) (Proc.devRef .tc main_arg0) = _
  after_results_simp <;> rfl

set_option maxRecDepth 8192 in
set_option maxHeartbeats 4000000 in
theorem entry_arg1 (c : Dev nD) : V1 m ρ c main_arg1 = m ((c.tc : Thread nD τ).loc main_arg1) := by
  show StableHlo.after hostOps0 (W0 m ρ c) (Proc.devRef .tc main_arg1) = _
  after_results_simp <;> rfl

set_option maxRecDepth 8192 in
set_option maxHeartbeats 4000000 in
theorem entry_arg4 (c : Dev nD) : V1 m ρ c main_arg4 = m ((c.tc : Thread nD τ).loc main_arg4) := by
  show StableHlo.after hostOps0 (W0 m ρ c) (Proc.devRef .tc main_arg4) = _
  after_results_simp <;> rfl

end Cert.KernelIdeal.HostPrefix

end
-- ==== Proof.KernelValue.lean ====
/-
  The idealized kernel's two results as the node updates of its three aggregates.

  The router result is the first region's output array, which ends holding the update written over all 100000 rows of the
  arrays the region finds at its entry; those are the router features, the first two aggregates, the upper and lower 128 rows
  cut from the [256, 128] weight, and the bias recast as a row — so the array is `routerOut` of the features, the two
  aggregates, the whole weight and the bias (`router_value`). The packet result is the second region's output array; what
  that region reads is still as the host stretch left it, so the array is `packetOut` of the packet features, the third
  aggregate, the [128, 128] weight and the bias (`packet_value`). `run` posts both, the arguments unchanged.
-/
import proofs.«142274_j33131377721484_2_alg».proof.Proof.KernelRun
import proofs.«142274_j33131377721484_2_alg».proof.Proof.RouterValue
import proofs.«142274_j33131377721484_2_alg».proof.Proof.PacketValue
import proofs.«142274_j33131377721484_2_alg».proof.Proof.KernelHost

noncomputable section

namespace Cert.KernelIdeal.Value

open Cert.KernelIdeal Cert.KernelIdeal.Gen Cert.KernelIdeal.GenP Cert.NodeUpdate Cert.KernelIdeal.HostPrefix
open Idealize.ShloMosaic Idealize.ShloMosaic.TcCoe Idealize.SL.Sem

variable (m : (ℓ : Loc nD τ sig) → Buf (Elt Ideal) ℓ) (ρ : Dev nD → PrngReg)

/-- The router result after the run. -/
theorem router_value (c : Dev nD) :
    W3 m ρ c (Proc.devRef .tc main_v51)
      = routerOut (m ((c.tc : Thread nD τ).loc main_arg0))
          (routerFromRouters (F := Ideal) (m ((c.tc : Thread nD τ).loc main_arg0)) (m ((c.tc : Thread nD τ).loc main_arg6)) (m ((c.tc : Thread nD τ).loc main_arg7)))
          (routerFromPackets (F := Ideal) (m ((c.tc : Thread nD τ).loc main_arg1)) (m ((c.tc : Thread nD τ).loc main_arg8)) (m ((c.tc : Thread nD τ).loc main_arg9)))
          (m ((c.tc : Thread nD τ).loc main_arg2)) (m ((c.tc : Thread nD τ).loc main_arg3)) := by
  rw [Cert.KernelIdeal.Results.router_result m ρ c, Cert.KernelIdeal.RouterValue.final (V1 m ρ) c]
  unfold Cert.KernelIdeal.RouterValue.whole
  rw [entry_arg0 m ρ c, entry_v44 m ρ c, entry_v45 m ρ c, entry_v47 m ρ c, entry_v48 m ρ c, entry_v49 m ρ c]
  exact routerTiles_cut slices_S256x128_S128x128_0_0 slices_S256x128_S128x128_128_0 shapeCasts_S128_S1x128 _ _ _ _ _

/-- The packet result after the run. -/
theorem packet_value (c : Dev nD) :
    W3 m ρ c (Proc.devRef .tc main_v52)
      = packetOut (m ((c.tc : Thread nD τ).loc main_arg1))
          (packetMean (F := Ideal) (m ((c.tc : Thread nD τ).loc main_arg0)) (m ((c.tc : Thread nD τ).loc main_arg10)) (m ((c.tc : Thread nD τ).loc main_arg11)))
          (m ((c.tc : Thread nD τ).loc main_arg4)) (m ((c.tc : Thread nD τ).loc main_arg5)) := by
  rw [Cert.KernelIdeal.Results.packet_result m ρ c, Cert.KernelIdeal.PacketValue.final (V2 m ρ) c]
  unfold Cert.KernelIdeal.PacketValue.whole
  rw [Cert.KernelIdeal.Results.second_entry_arg1 m ρ c, Cert.KernelIdeal.Results.second_entry_v46 m ρ c,
    Cert.KernelIdeal.Results.second_entry_arg4 m ρ c, Cert.KernelIdeal.Results.second_entry_v50 m ρ c,
    entry_arg1 m ρ c, entry_v46 m ρ c, entry_arg4 m ρ c, entry_v50 m ρ c]
  exact packetTiles_cast shapeCasts_S128_S1x128 _ _ _ _

/-- The kernel's run at the exact values: the router result is `routerOut` and the packet result `packetOut` of the
    features, the aggregates, the weights and the biases as launched; the arguments end unchanged. -/
theorem run : θ_run defs (onTc (τ := τ) (main (F := Ideal))) ⟨m, fun _ => 0, ρ⟩ fun r => ∀ c : Dev nD,
      r.2.mem ((c.tc : Thread nD τ).loc main_v51)
        = routerOut (m ((c.tc : Thread nD τ).loc main_arg0))
            (routerFromRouters (F := Ideal) (m ((c.tc : Thread nD τ).loc main_arg0)) (m ((c.tc : Thread nD τ).loc main_arg6)) (m ((c.tc : Thread nD τ).loc main_arg7)))
            (routerFromPackets (F := Ideal) (m ((c.tc : Thread nD τ).loc main_arg1)) (m ((c.tc : Thread nD τ).loc main_arg8)) (m ((c.tc : Thread nD τ).loc main_arg9)))
            (m ((c.tc : Thread nD τ).loc main_arg2)) (m ((c.tc : Thread nD τ).loc main_arg3))
      ∧ r.2.mem ((c.tc : Thread nD τ).loc main_v52)
        = packetOut (m ((c.tc : Thread nD τ).loc main_arg1))
            (packetMean (F := Ideal) (m ((c.tc : Thread nD τ).loc main_arg0)) (m ((c.tc : Thread nD τ).loc main_arg10)) (m ((c.tc : Thread nD τ).loc main_arg11)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c).1.trans (router_value m ρ c), (h c).2.1.trans (packet_value m ρ c), (h c).2.2⟩)
    (Cert.KernelIdeal.Results.results (F := Ideal) m ρ)

end Cert.KernelIdeal.Value

end
-- ==== Proof.ReferenceValue.lean ====
/-
  The reference's two results as the node updates of its three aggregates.

  The reference computes the same three aggregates as the kernel's host stretch — each a row gather followed by a scatter-add
  into a zero array, the third divided by max (number of arriving edges, 1) — directly on the features, with no change of
  float format. Its router result is then features + max ([first | second] · W + bias, 0) through one `dot_general` of the
  concatenation, and its packet result features + max (third · W + bias, 0): the host's forms of `routerOut` and `packetOut`.
  `run` is the program's run with both results posted as those functions of the launch contents of the arguments.
-/
import proofs.«142274_j33131377721484_2_alg».proof.Proof.Gen.ReferenceIdeal.Run
import proofs.«142274_j33131377721484_2_alg».proof.Proof.LayerSpec

noncomputable section

namespace Cert.ReferenceIdeal.HostValue

open Cert.ReferenceIdeal Cert.ReferenceIdeal.Gen Cert.NodeUpdate
open Idealize.ShloMosaic Idealize.ShloMosaic.TcCoe Idealize.SL.Sem Idealize.ShloMosaic.StableHlo

variable {F : FTy → Type} [FloatOps F]

/-- An edge list's end points: 600000 words. -/
abbrev Ends (F : FTy → Type) [FloatOps F] := (⟨S600000, .i32⟩ : BufTy).Contents (Elt F)

/-- The index normalisation for an axis of length n: a negative index counts from the end. -/
def fromEnd (n : BitVec 32) (s : Ends F) : Ends F :=
  select (cmpi .slt s (broadcastInDim S600000 ![] bcast_S_S600000 (constantI S_ 32 0#32)))
    (addi s (broadcastInDim S600000 ![] bcast_S_S600000 (constantI S_ 32 n))) s

/-- The indices as the [600000, 1] column a gather or a scatter takes. -/
def column (s : Ends F) : (⟨S600000x1, .i32⟩ : BufTy).Contents (Elt F) :=
  broadcastInDim S600000x1 ![0] bcast_S600000_S600000x1_0 s

/-- Router rows summed over the router-to-router edges. -/
def routerFromRouters (x0 : (⟨S100000x128, .f32⟩ : BufTy).Contents (Elt F)) (src dst : Ends F) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32)) (column dst)
    (Host.gather gather_S100000x128_S600000x1_S600000x128_1_0_n_n_0_1_1128 x0 (column (fromEnd 100000#32 src)))

/-- Packet rows summed over the packet-to-router edges. -/
def routerFromPackets (x1 : (⟨S200000x128, .f32⟩ : BufTy).Contents (Elt F)) (src dst : Ends F) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32)) (column dst)
    (Host.gather gather_S200000x128_S600000x1_S600000x128_1_0_n_n_0_1_1128 x1 (column (fromEnd 200000#32 src)))

/-- Router rows averaged over the router-to-packet edges into each packet (the sum where no edge arrives). -/
def packetMean (x0 : (⟨S100000x128, .f32⟩ : BufTy).Contents (Elt F)) (src dst : Ends F) :
    (⟨S200000x128, .f32⟩ : BufTy).Contents (Elt F) :=
  Host.divf
    (Host.scatterAdd scatter_S200000x128_S600000x1_S600000x128_1_0_0_1
      (broadcastInDim S200000x128 ![] bcast_S_S200000x128 (constant S_ .f32 0x00000000#32)) (column dst)
      (Host.gather gather_S100000x128_S600000x1_S600000x128_1_0_n_n_0_1_1128 x0 (column (fromEnd 100000#32 src))))
    (broadcastInDim S200000x128 ![0, 1] bcast_S200000x1_S200000x128_0_1
      (broadcastInDim S200000x1 ![0] bcast_S200000_S200000x1_0
        (maximumf
          (Host.scatterAdd scatter_S200000_S600000x1_S600000_n_0_0_1
            (broadcastInDim S200000 ![] bcast_S_S200000 (constant S_ .f32 0x00000000#32)) (column dst)
            (broadcastInDim S600000 ![] bcast_S_S600000 (constant S_ .f32 0x3F800000#32)))
          (broadcastInDim S200000 ![] bcast_S_S200000 (constant S_ .f32 0x3F800000#32)))))

variable (m : (ℓ : Loc nD τ sig) → Buf (Elt Ideal) ℓ) (ρ : Dev nD → PrngReg)

/-- The reference's run at the exact values: the router result is `routerOut` and the packet result `packetOut` of the
    features, the aggregates, the weights and the biases as launched; the arguments end unchanged. -/
theorem run : θ_run defs (onTc (τ := τ) (main (F := Ideal))) ⟨m, fun _ => 0, ρ⟩ fun r => ∀ c : Dev nD,
      r.2.mem ((c.tc : Thread nD τ).loc main_v45)
        = routerOut (m ((c.tc : Thread nD τ).loc main_arg0))
            (routerFromRouters (F := Ideal) (m ((c.tc : Thread nD τ).loc main_arg0)) (m ((c.tc : Thread nD τ).loc main_arg6)) (m ((c.tc : Thread nD τ).loc main_arg7)))
            (routerFromPackets (F := Ideal) (m ((c.tc : Thread nD τ).loc main_arg1)) (m ((c.tc : Thread nD τ).loc main_arg8)) (m ((c.tc : Thread nD τ).loc main_arg9)))
            (m ((c.tc : Thread nD τ).loc main_arg2)) (m ((c.tc : Thread nD τ).loc main_arg3))
      ∧ r.2.mem ((c.tc : Thread nD τ).loc main_v51)
        = packetOut (m ((c.tc : Thread nD τ).loc main_arg1))
            (packetMean (F := Ideal) (m ((c.tc : Thread nD τ).loc main_arg0)) (m ((c.tc : Thread nD τ).loc main_arg10)) (m ((c.tc : Thread nD τ).loc main_arg11)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c).1.trans (router_host_eq dot_S100000x256_S256x128_S100000x128_1_0_0_1_n_n rfl rfl rfl rfl rfl rfl rfl rfl none
          concatenates_S100000x128_S100000x128_S100000x256_d1 bcast_S128_S1x128_1 bcast_S1x128_S100000x128_0_1 bcast_S_S100000x128
          (m ((c.tc : Thread nD τ).loc main_arg0))
          (routerFromRouters (F := Ideal) (m ((c.tc : Thread nD τ).loc main_arg0)) (m ((c.tc : Thread nD τ).loc main_arg6)) (m ((c.tc : Thread nD τ).loc main_arg7)))
          (routerFromPackets (F := Ideal) (m ((c.tc : Thread nD τ).loc main_arg1)) (m ((c.tc : Thread nD τ).loc main_arg8)) (m ((c.tc : Thread nD τ).loc main_arg9)))
          (m ((c.tc : Thread nD τ).loc main_arg2)) (m ((c.tc : Thread nD τ).loc main_arg3))),
       (h c).2.1.trans (packet_host_eq dot_S200000x128_S128x128_S200000x128_1_0_0_1_n_n rfl rfl rfl rfl rfl rfl rfl rfl none
          bcast_S128_S1x128_1 bcast_S1x128_S200000x128_0_1 bcast_S_S200000x128
          (m ((c.tc : Thread nD τ).loc main_arg1))
          (packetMean (F := Ideal) (m ((c.tc : Thread nD τ).loc main_arg0)) (m ((c.tc : Thread nD τ).loc main_arg10)) (m ((c.tc : Thread nD τ).loc main_arg11)))
          (m ((c.tc : Thread nD τ).loc main_arg4)) (m ((c.tc : Thread nD τ).loc main_arg5))),
       (h c).2.2⟩)
    (Cert.ReferenceIdeal.Value.run (F := Ideal) m ρ)

end Cert.ReferenceIdeal.HostValue

end
-- ==== Proof.lean ====
/-
  The certificate of a heterogeneous graph layer: two kernels that add a clamped linear image of edge aggregates to the node
  features, against a reference written with whole-array operations.

  Both programs first form three aggregates over the edges by a row gather and a scatter-add (the third a mean). The kernel
  rounds the features to a narrower float format before gathering and the aggregates once more before its two regions, and
  feeds its matrix products operands in that format; at the exact values every such change of format is the identity, so its
  aggregates ARE the reference's (`routerFromRouters_eq`, `routerFromPackets_eq`, `packetMean_eq`: the same scatter-add of the
  same gathered rows). The router update is x + max ([h1 | h2] · W + bias, 0): the reference contracts the concatenation
  against the whole [256, 128] weight, the kernel adds two products against the weight's upper and lower 128 rows, block of
  5000 rows by block; a sum over 256 indices is the sum over its two halves, which needs no entry to be finite. The packet
  update x + max (h · W + bias, 0) is the same contraction on both sides, block of 10000 rows by block in the kernel. So both
  runs end with the two result arrays at `routerOut` and `packetOut` of the same arrays (`algebraic`); the precondition is
  never opened. The ideal pass rewrote nothing in the kernel, so `preserves` asks nothing.
-/
import proofs.«142274_j33131377721484_2_alg».proof.Defs
import proofs.«142274_j33131377721484_2_alg».proof.Proof.Gen.Kernel
import proofs.«142274_j33131377721484_2_alg».proof.Proof.Gen.KernelIdeal
import proofs.«142274_j33131377721484_2_alg».proof.Proof.Gen.ReferenceIdeal
import proofs.«142274_j33131377721484_2_alg».proof.Proof.Gen.ReferenceIdeal.Run
import proofs.«142274_j33131377721484_2_alg».proof.Proof.Gen.Pre_finite_inputs
import proofs.«142274_j33131377721484_2_alg».proof.Proof.Patched.KernelFrame
import proofs.«142274_j33131377721484_2_alg».proof.Proof.Patched.KernelIdealFrame
import proofs.«142274_j33131377721484_2_alg».proof.Proof.KernelValue
import proofs.«142274_j33131377721484_2_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx Cert.NodeUpdate

/-! ## The two programs' aggregates are the same arrays at the exact values -/

/-- Router rows summed over the router-to-router edges: the kernel's, gathered from rounded features, widened, summed and
    rounded again, is the reference's, every rounding being the identity. -/
theorem routerFromRouters_eq (x0 : (⟨Cert.KernelIdeal.S100000x128, .f32⟩ : BufTy).Contents (Elt Ideal))
    (s d : Cert.KernelIdeal.HostPrefix.Ends Ideal) :
    (Cert.KernelIdeal.HostPrefix.routerFromRouters (F := Ideal) x0 s d : (⟨2, ![100000, 128]⟩ : Shape).Idx → EReal)
      = Cert.ReferenceIdeal.HostValue.routerFromRouters (F := Ideal) x0 s d := by
  unfold Cert.KernelIdeal.HostPrefix.routerFromRouters Cert.ReferenceIdeal.HostValue.routerFromRouters
  funext j
  rw [truncf_apply]
  rfl

/-- Packet rows summed over the packet-to-router edges: the kernel's is the reference's. -/
theorem routerFromPackets_eq (x1 : (⟨Cert.KernelIdeal.S200000x128, .f32⟩ : BufTy).Contents (Elt Ideal))
    (s d : Cert.KernelIdeal.HostPrefix.Ends Ideal) :
    (Cert.KernelIdeal.HostPrefix.routerFromPackets (F := Ideal) x1 s d : (⟨2, ![100000, 128]⟩ : Shape).Idx → EReal)
      = Cert.ReferenceIdeal.HostValue.routerFromPackets (F := Ideal) x1 s d := by
  unfold Cert.KernelIdeal.HostPrefix.routerFromPackets Cert.ReferenceIdeal.HostValue.routerFromPackets
  funext j
  rw [truncf_apply]
  rfl

/-- Router rows averaged over the router-to-packet edges: the kernel's is the reference's. -/
theorem packetMean_eq (x0 : (⟨Cert.KernelIdeal.S100000x128, .f32⟩ : BufTy).Contents (Elt Ideal))
    (s d : Cert.KernelIdeal.HostPrefix.Ends Ideal) :
    (Cert.KernelIdeal.HostPrefix.packetMean (F := Ideal) x0 s d : (⟨2, ![200000, 128]⟩ : Shape).Idx → EReal)
      = Cert.ReferenceIdeal.HostValue.packetMean (F := Ideal) x0 s d := by
  unfold Cert.KernelIdeal.HostPrefix.packetMean Cert.ReferenceIdeal.HostValue.packetMean
  funext j
  rw [truncf_apply, hostDivf_apply, hostDivf_apply]
  rfl

/-! ## The claims -/

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- Both programs end with the router result at `routerOut` and the packet result at `packetOut` of the features, the
    aggregates, the weights and the biases; the arguments agree and the aggregates are the same arrays. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ?_) (Cert.ReferenceIdeal.HostValue.run m' ρ')
  obtain ⟨h45, h51, hargs⟩ := h c
  obtain ⟨a0, a1, a2, a3, a4, a5, a6, a7, a8, a9, a10, a11⟩ := hagree c
  refine ⟨h45.trans ?_, h51.trans ?_, hargs⟩
  · rw [a0, a1, a2, a3, a6, a7, a8, a9]
    exact (congrArg₂ (fun h1 h2 => routerOut _ h1 h2 _ _) (routerFromRouters_eq _ _ _) (routerFromPackets_eq _ _ _)).symm
  · rw [a0, a1, a4, a5, a10, a11]
    exact (congrArg (fun h => packetOut _ h _ _) (packetMean_eq _ _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
